-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x131072 : Shape := ⟨2, ![256, 131072]⟩
abbrev S16x65536 : Shape := ⟨2, ![16, 65536]⟩
abbrev S_ : Shape := ⟨0, ![]⟩

class Facts : Prop where
  bcast_S_S256x131072 : S_.BroadcastsInDim S256x131072 (![] : Fin 0 → Fin S256x131072.rank)
  reducesTo_S256x131072_S_d0_1 : S256x131072.ReducesTo [0, 1] S_
  h_S_ : 0 < S_.numel
  bcast_S_S16x65536 : S_.BroadcastsInDim S16x65536 (![] : Fin 0 → Fin S16x65536.rank)
  reducesTo_S16x65536_S_d0_1 : S16x65536.ReducesTo [0, 1] S_

variable [Facts]

def fn {F : FTy → Type} [FloatOps F] (main_arg0 : FVec F S256x131072 .f32) (main_arg1 : FVec F S16x65536 .f32) : IVec S_ 1 :=
  let main_v0 : FVec F S256x131072 .f32 := Host.absf main_arg0
  let main_cst : FVec F S_ .f32 := constant S_ .f32 0x7F800000#32
  let main_v1 : FVec F S256x131072 .f32 := broadcastInDim S256x131072 ![] bcast_S_S256x131072 main_cst
  let main_v2 : IVec S256x131072 1 := cmpf .olt main_v0 main_v1
  let main_c : IVec S_ 1 := constantI S_ 1 1#1
  let main_v3 : IVec S_ 1 := (fun x v => Host.reduce IntOp.andi x v reducesTo_S256x131072_S_d0_1 h_S_) main_v2 main_c
  let main_v4 : FVec F S16x65536 .f32 := Host.absf main_arg1
  let main_cst_0 : FVec F S_ .f32 := constant S_ .f32 0x7F800000#32
  let main_v5 : FVec F S16x65536 .f32 := broadcastInDim S16x65536 ![] bcast_S_S16x65536 main_cst_0
  let main_v6 : IVec S16x65536 1 := cmpf .olt main_v4 main_v5
  let main_c_1 : IVec S_ 1 := constantI S_ 1 1#1
  let main_v7 : IVec S_ 1 := (fun x v => Host.reduce IntOp.andi x v reducesTo_S16x65536_S_d0_1 h_S_) main_v6 main_c_1
  let main_v8 : IVec S_ 1 := andi main_v3 main_v7
  main_v8
-- ==== Kernel.lean ====
abbrev S256x131072 : Shape := ⟨2, ![256, 131072]⟩
abbrev S16x65536 : Shape := ⟨2, ![16, 65536]⟩
abbrev S4x16 : Shape := ⟨2, ![4, 16]⟩
abbrev S256x65536x2 : Shape := ⟨3, ![256, 65536, 2]⟩
abbrev S256x65536x1 : Shape := ⟨3, ![256, 65536, 1]⟩
abbrev S256x65536 : Shape := ⟨2, ![256, 65536]⟩
abbrev S256x2048 : Shape := ⟨2, ![256, 2048]⟩
abbrev S16x2048 : Shape := ⟨2, ![16, 2048]⟩
abbrev S2048 : Shape := ⟨1, ![2048]⟩
abbrev S1x2048 : Shape := ⟨2, ![1, 2048]⟩
abbrev S4x2048 : Shape := ⟨2, ![4, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x131072, .f32⟩
  | .hbm, ⟨1, _⟩ => ⟨S16x65536, .f32⟩
  | .hbm, ⟨2, _⟩ => ⟨S4x16, .f32⟩
  | .hbm, ⟨3, _⟩ => ⟨S256x65536x2, .f32⟩
  | .hbm, ⟨4, _⟩ => ⟨S256x65536x1, .f32⟩
  | .hbm, ⟨5, _⟩ => ⟨S256x65536, .f32⟩
  | .hbm, ⟨6, _⟩ => ⟨S256x65536x1, .f32⟩
  | .hbm, ⟨7, _⟩ => ⟨S256x65536, .f32⟩
  | .hbm, ⟨8, _⟩ => ⟨S256x65536, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S16x2048, .f32⟩
  | .local _ .vmem, ⟨5, _⟩ => ⟨S16x2048, .f32⟩
  | .local _ .vmem, ⟨6, _⟩ => ⟨S4x16, .f32⟩
  | .local _ .vmem, ⟨7, _⟩ => ⟨S256x2048, .f32⟩
  | .local _ .vmem, ⟨8, _⟩ => ⟨S256x2048, .f32⟩
  | _, _ => ⟨S256x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256x131072_S256x65536x2 : S256x131072.ShapeCasts S256x65536x2
  slices_S256x65536x2_S256x65536x1_0_0_0 : S256x65536x2.Slices ![0, 0, 0] S256x65536x1
  shapeCasts_S256x65536x1_S256x65536 : S256x65536x1.ShapeCasts S256x65536
  slices_S256x65536x2_S256x65536x1_0_0_1 : S256x65536x2.Slices ![0, 0, 1] S256x65536x1
  inb_S16x2048_S16x2048_0_0 : ∀ a, (![0, 0] : Fin 2 → Nat) a + S16x2048.size a ≤ S16x2048.size a
  h_S16x2048 : 0 < S16x2048.numel
  reduces_S16x2048_S2048 : S16x2048.Reduces [0] S2048
  shapeCasts_S2048_S1x2048 : S2048.ShapeCasts S1x2048
  broadcasts_S1x2048_S16x2048 : S1x2048.Broadcasts S16x2048
  inb_S4x16_S4x16_0_0 : ∀ a, (![0, 0] : Fin 2 → Nat) a + S4x16.size a ≤ S4x16.size a
  h_S4x16 : 0 < S4x16.numel
  slices_S4x2048_o0_0_S1x2048 : S4x2048.Slices ![0, 0] S1x2048
  slices_S4x2048_o1_0_S1x2048 : S4x2048.Slices ![1, 0] S1x2048
  slices_S4x2048_o2_0_S1x2048 : S4x2048.Slices ![2, 0] S1x2048
  slices_S4x2048_o3_0_S1x2048 : S4x2048.Slices ![3, 0] S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S1x2048_S256x2048 : S1x2048.Broadcasts S256x2048
  dot_S4x16_S16x2048_S4x2048_1_0_0_1_n_n_wf : DotDims.WF S4x16 S16x2048 S4x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x65536.size a
  hwx0_0 : ∀ i : grid0.Coords, EltTy.bits .f32 = 32 ∨ (Rect.block (s := S256x65536) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x65536.size a
  hwx0_1 : ∀ i : grid0.Coords, EltTy.bits .f32 = 32 ∨ (Rect.block (s := S256x65536) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x65536.size a
  hwx0_2 : ∀ i : grid0.Coords, EltTy.bits .f32 = 32 ∨ (Rect.block (s := S16x65536) S16x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16.size a ≤ S4x16.size a
  hwx0_3 : ∀ i : grid0.Coords, EltTy.bits .f32 = 32 ∨ (Rect.block (s := S4x16) S4x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S256x65536.size a
  hwx0_4 : ∀ i : grid0.Coords, EltTy.bits .f32 = 32 ∨ (Rect.block (s := S256x65536) S256x2048.size (cc0_transform_4 i) (hinb0_4 i)).WholeWords (EltTy.packing .f32)

variable [Facts₀]

def dot_S4x16_S16x2048_S4x2048_1_0_0_1_n_n : DotDims S4x16 S16x2048 S4x2048 where
  lhsContracting := [1]
  rhsContracting := [0]
  lhsNonContracting := [0]
  rhsNonContracting := [1]
  lhsBatch := []
  rhsBatch := []
  wf := dot_S4x16_S16x2048_S4x2048_1_0_0_1_n_n_wf

abbrev win0_0 : Pipeline.Window sig grid0 :=
  Pipeline.Window.ofSpec (Memref.whole main_v2) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S4x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x131072 : Shape := ⟨2, ![256, 131072]⟩
abbrev S16x65536 : Shape := ⟨2, ![16, 65536]⟩
abbrev S4x16 : Shape := ⟨2, ![4, 16]⟩
abbrev S256x65536x2 : Shape := ⟨3, ![256, 65536, 2]⟩
abbrev S256x65536x1 : Shape := ⟨3, ![256, 65536, 1]⟩
abbrev S256x65536 : Shape := ⟨2, ![256, 65536]⟩
abbrev S_ : Shape := ⟨0, ![]⟩
abbrev S65536 : Shape := ⟨1, ![65536]⟩
abbrev S1x65536 : Shape := ⟨2, ![1, 65536]⟩
abbrev S4x65536 : Shape := ⟨2, ![4, 65536]⟩

abbrev nBuf : Space → Nat
  | .hbm => 49
  | .vmem => 0
  | .smem => 0
  | _ => 0

abbrev bufTy : (tb : Table) → Fin (tcTables nBuf tb) → BufTy
  | .hbm, ⟨0, _⟩ => ⟨S256x131072, .f32⟩
  | .hbm, ⟨1, _⟩ => ⟨S16x65536, .f32⟩
  | .hbm, ⟨2, _⟩ => ⟨S4x16, .f32⟩
  | .hbm, ⟨3, _⟩ => ⟨S256x65536x2, .f32⟩
  | .hbm, ⟨4, _⟩ => ⟨S256x65536x1, .f32⟩
  | .hbm, ⟨5, _⟩ => ⟨S256x65536, .f32⟩
  | .hbm, ⟨6, _⟩ => ⟨S256x65536x1, .f32⟩
  | .hbm, ⟨7, _⟩ => ⟨S256x65536, .f32⟩
  | .hbm, ⟨8, _⟩ => ⟨S_, .f32⟩
  | .hbm, ⟨9, _⟩ => ⟨S16x65536, .f32⟩
  | .hbm, ⟨10, _⟩ => ⟨S16x65536, .f32⟩
  | .hbm, ⟨11, _⟩ => ⟨S_, .f32⟩
  | .hbm, ⟨12, _⟩ => ⟨S65536, .f32⟩
  | .hbm, ⟨13, _⟩ => ⟨S_, .f32⟩
  | .hbm, ⟨14, _⟩ => ⟨S65536, .f32⟩
  | .hbm, ⟨15, _⟩ => ⟨S65536, .f32⟩
  | .hbm, ⟨16, _⟩ => ⟨S1x65536, .f32⟩
  | .hbm, ⟨17, _⟩ => ⟨S16x65536, .f32⟩
  | .hbm, ⟨18, _⟩ => ⟨S16x65536, .f32⟩
  | .hbm, ⟨19, _⟩ => ⟨S16x65536, .f32⟩
  | .hbm, ⟨20, _⟩ => ⟨S_, .f32⟩
  | .hbm, ⟨21, _⟩ => ⟨S65536, .f32⟩
  | .hbm, ⟨22, _⟩ => ⟨S1x65536, .f32⟩
  | .hbm, ⟨23, _⟩ => ⟨S16x65536, .f32⟩
  | .hbm, ⟨24, _⟩ => ⟨S16x65536, .f32⟩
  | .hbm, ⟨25, _⟩ => ⟨S4x65536, .f32⟩
  | .hbm, ⟨26, _⟩ => ⟨S1x65536, .f32⟩
  | .hbm, ⟨27, _⟩ => ⟨S65536, .f32⟩
  | .hbm, ⟨28, _⟩ => ⟨S1x65536, .f32⟩
  | .hbm, ⟨29, _⟩ => ⟨S65536, .f32⟩
  | .hbm, ⟨30, _⟩ => ⟨S1x65536, .f32⟩
  | .hbm, ⟨31, _⟩ => ⟨S256x65536, .f32⟩
  | .hbm, ⟨32, _⟩ => ⟨S256x65536, .f32⟩
  | .hbm, ⟨33, _⟩ => ⟨S1x65536, .f32⟩
  | .hbm, ⟨34, _⟩ => ⟨S256x65536, .f32⟩
  | .hbm, ⟨35, _⟩ => ⟨S256x65536, .f32⟩
  | .hbm, ⟨36, _⟩ => ⟨S1x65536, .f32⟩
  | .hbm, ⟨37, _⟩ => ⟨S65536, .f32⟩
  | .hbm, ⟨38, _⟩ => ⟨S1x65536, .f32⟩
  | .hbm, ⟨39, _⟩ => ⟨S256x65536, .f32⟩
  | .hbm, ⟨40, _⟩ => ⟨S256x65536, .f32⟩
  | .hbm, ⟨41, _⟩ => ⟨S256x65536, .f32⟩
  | .hbm, ⟨42, _⟩ => ⟨S1x65536, .f32⟩
  | .hbm, ⟨43, _⟩ => ⟨S65536, .f32⟩
  | .hbm, ⟨44, _⟩ => ⟨S256x65536, .f32⟩
  | .hbm, ⟨45, _⟩ => ⟨S1x65536, .f32⟩
  | .hbm, ⟨46, _⟩ => ⟨S256x65536, .f32⟩
  | .hbm, ⟨47, _⟩ => ⟨S256x65536, .f32⟩
  | .hbm, ⟨48, _⟩ => ⟨S256x65536, .f32⟩
  | _, _ => ⟨S256x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]

class Facts₀ : Prop where
  shapeCasts_S256x131072_S256x65536x2 : S256x131072.ShapeCasts S256x65536x2
  slices_S256x65536x2_S256x65536x1_0_0_0 : S256x65536x2.Slices ![0, 0, 0] S256x65536x1
  shapeCasts_S256x65536x1_S256x65536 : S256x65536x1.ShapeCasts S256x65536
  slices_S256x65536x2_S256x65536x1_0_0_1 : S256x65536x2.Slices ![0, 0, 1] S256x65536x1
  bcast_S_S16x65536 : S_.BroadcastsInDim S16x65536 (![] : Fin 0 → Fin S16x65536.rank)
  reducesTo_S16x65536_S65536_d0 : S16x65536.ReducesTo [0] S65536
  h_S_ : 0 < S_.numel
  bcast_S_S65536 : S_.BroadcastsInDim S65536 (![] : Fin 0 → Fin S65536.rank)
  bcast_S65536_S1x65536_1 : S65536.BroadcastsInDim S1x65536 (![1] : Fin 1 → Fin S1x65536.rank)
  bcast_S1x65536_S16x65536_0_1 : S1x65536.BroadcastsInDim S16x65536 (![0, 1] : Fin 2 → Fin S16x65536.rank)
  slices_S4x65536_S1x65536_0_0 : S4x65536.Slices ![0, 0] S1x65536
  shapeCasts_S1x65536_S65536 : S1x65536.ShapeCasts S65536
  slices_S4x65536_S1x65536_1_0 : S4x65536.Slices ![1, 0] S1x65536
  bcast_S1x65536_S256x65536_0_1 : S1x65536.BroadcastsInDim S256x65536 (![0, 1] : Fin 2 → Fin S256x65536.rank)
  slices_S4x65536_S1x65536_2_0 : S4x65536.Slices ![2, 0] S1x65536
  slices_S4x65536_S1x65536_3_0 : S4x65536.Slices ![3, 0] S1x65536
  dot_S4x16_S16x65536_S4x65536_1_0_0_1_n_n_wf : DotDims.WF S4x16 S16x65536 S4x65536 [1] [0] [0] [1] [] []

variable [Facts₀]

def dot_S4x16_S16x65536_S4x65536_1_0_0_1_n_n : DotDims S4x16 S16x65536 S4x65536 where
  lhsContracting := [1]
  rhsContracting := [0]
  lhsNonContracting := [0]
  rhsNonContracting := [1]
  lhsBatch := []
  rhsBatch := []
  wf := dot_S4x16_S16x65536_S4x65536_1_0_0_1_n_n_wf

class Facts : Prop extends Facts₀ where

variable [Facts]
-- ==== Proof.Spec.lean ====
/-
  The function both programs compute, entry by entry, on the extended reals.

  For a column `col` of `R` scores, scaled by `one`: its largest scaled score `top` (the fold of `max` from `lo`), the
  exponentials `exp (col s · one − top)`, their sum, and the normalised weights `exp (…) / sum` — a softmax down the
  column. A fixed `Q × R` table `c` turns the weights into `Q` coefficients `coef q = ∑ k, c q k · weight k`. With four
  coefficients and two numbers `a`, `b` the result is the bilinear mix
  `((coef 0 + coef 1 · a) + coef 2 · b) + coef 3 · (a · b)`.
  The array `result` applies this at row `p` and column `j`: the column is column `j` of the score matrix, and `a`, `b`
  are the entries `(p, j)` of two matrices.
-/
import Idealize.ShloMosaic.PureOps.Ideal
import Idealize.ShloMosaic.Lib.ValueIdx

noncomputable section

open scoped BigOperators

namespace Cert.SoftmaxMix

open Idealize.ShloMosaic Idealize.ShloMosaic.ValueIdx

/-- The column's largest scaled score, from `lo`. -/
def top {R : ℕ} (col : Fin R → EReal) (one lo : EReal) : EReal :=
  (Finset.univ : Finset (Fin R)).fold max lo (fun s => col s * one)

/-- The exponential of a scaled score less the largest one. -/
def expo {R : ℕ} (col : Fin R → EReal) (one lo : EReal) (s : Fin R) : EReal :=
  Ideal.exp (col s * one - top col one lo)

/-- The normalised weight of row `s`: its exponential over the sum of the column's exponentials. -/
def weight {R : ℕ} (col : Fin R → EReal) (one lo : EReal) (s : Fin R) : EReal :=
  Ideal.div (expo col one lo s) (∑ r : Fin R, expo col one lo r)

/-- Coefficient `q`: row `q` of the table against the column's weights. -/
def coef {Q R : ℕ} (c : Fin Q → Fin R → EReal) (col : Fin R → EReal) (one lo : EReal) (q : Fin Q) : EReal :=
  ∑ k : Fin R, c q k * weight col one lo k

/-- The bilinear mix of four coefficients with two numbers. -/
def mix (wc : Fin 4 → EReal) (a b : EReal) : EReal :=
  ((wc 0 + wc 1 * a) + wc 2 * b) + wc 3 * (a * b)

/-- The result at row `p`, column `j`. -/
def entry {P N R : ℕ} (A B : (⟨2, ![P, N]⟩ : Shape).Idx → EReal) (w : (⟨2, ![R, N]⟩ : Shape).Idx → EReal)
    (c : (⟨2, ![4, R]⟩ : Shape).Idx → EReal) (one lo : EReal) (p : Fin P) (j : Fin N) : EReal :=
  mix (coef (fun q k => c (ix2 q k)) (fun s => w (ix2 s j)) one lo) (A (ix2 p j)) (B (ix2 p j))

/-- The whole result array. -/
def result {P N R : ℕ} (A B : (⟨2, ![P, N]⟩ : Shape).Idx → EReal) (w : (⟨2, ![R, N]⟩ : Shape).Idx → EReal)
    (c : (⟨2, ![4, R]⟩ : Shape).Idx → EReal) (one lo : EReal) : (⟨2, ![P, N]⟩ : Shape).Idx → EReal :=
  fun i => entry A B w c one lo (i 0) (i 1)

theorem result_ix2 {P N R : ℕ} (A B : (⟨2, ![P, N]⟩ : Shape).Idx → EReal) (w : (⟨2, ![R, N]⟩ : Shape).Idx → EReal)
    (c : (⟨2, ![4, R]⟩ : Shape).Idx → EReal) (one lo : EReal) (p : Fin P) (j : Fin N) :
    result A B w c one lo (ix2 p j) = entry A B w c one lo p j := rfl

/-- The mix of a column's coefficients depends only on the table, the column and the two numbers. -/
theorem mix_coef_congr {R : ℕ} (one lo : EReal) {c c' : Fin 4 → Fin R → EReal} {col col' : Fin R → EReal} {a a' b b' : EReal}
    (hc : c = c') (hcol : col = col') (ha : a = a') (hb : b = b') :
    mix (coef c col one lo) a b = mix (coef c' col' one lo) a' b' := by
  subst hc hcol ha hb
  rfl

/-- The result array depends only on the four arrays it is made from. -/
theorem result_congr {P N R : ℕ} (one lo : EReal) {A A' B B' : (⟨2, ![P, N]⟩ : Shape).Idx → EReal}
    {w w' : (⟨2, ![R, N]⟩ : Shape).Idx → EReal} {c c' : (⟨2, ![4, R]⟩ : Shape).Idx → EReal}
    (hA : A = A') (hB : B = B') (hw : w = w') (hc : c = c') :
    result A B w c one lo = result A' B' w' c' one lo := by
  subst hA hB hw hc
  rfl

end Cert.SoftmaxMix

end
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibFirstAxis.lean ====
/-
  Reductions over the FIRST axis of a matrix read at a column, at the exact (extended-real) values: the maximum a
  kernel takes, and the maximum and the sum a host program takes.

  Column `t` of an `[a, b]` array reduced over its first axis collects the entries `(s, t)`, `s` running over the
  `a` rows: a maximum is the fold of `max` over them from the starting value, a host sum the starting value plus their
  sum. (The kernel's sum over the first axis and the coordinate lemma are in LibCols.lean.) A fold of `max` is never
  below the value it starts from, so taking the maximum with that value once more changes nothing.
-/
import proofs.«129752_j1494648619383_2_alg».proof.Proof.LibCols

open scoped BigOperators

namespace Idealize.ShloMosaic.ValueIdx

open Idealize.ShloMosaic

variable {φ : FTy}

/-- A column's maximum as a kernel takes it: the fold of `max` over the column's entries, from the accumulator's value. -/
theorem colMax_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (t : Fin b) :
    multiReduction .maximumf [0] ⟨1, ![b]⟩ v acc h hφ hacc (ix1 t)
      = (Finset.univ : Finset (Fin a)).fold max (Ideal.ofBits φ acc) (fun s => v (ix2 s t)) := by
  rw [Ideal.multiReduction_maximumf_single]
  have e : (v ∘ h.lift (ix1 t)) = fun s : Fin a => v (ix2 s t) := funext fun s => congrArg v (lift_first_ix2 h t s)
  rw [e]
  rfl

/-- A column's maximum as the host takes it: the fold of `max` over the column's entries, from the starting value's
    one element. -/
theorem hostColMax_apply {a b : ℕ} (x : FVec Ideal ⟨2, ![a, b]⟩ φ) (init : (⟨0, ![]⟩ : Shape).Idx → Ideal φ)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (t : Fin b) :
    Host.reduce FloatOps.maximumf x init h' hu (ix1 t)
      = (Finset.univ : Finset (Fin a)).fold max (init ix0) (fun s => x (ix2 s t)) := by
  rw [Host.reduce_eq_fold_single FloatOps.maximumf x init h' h hu, eq_ix0 (Shape.Idx.first hu)]
  have e : (x ∘ h.lift (ix1 t)) = fun s : Fin a => x (ix2 s t) := funext fun s => congrArg x (lift_first_ix2 h t s)
  rw [e]
  rfl

/-- A column's sum as the host takes it: the starting value's one element plus the sum of the column's entries. -/
theorem hostColSum_apply {a b : ℕ} (x : FVec Ideal ⟨2, ![a, b]⟩ φ) (init : (⟨0, ![]⟩ : Shape).Idx → Ideal φ)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (t : Fin b) :
    Host.reduceAdd x init h' hu (ix1 t) = init ix0 + ∑ s : Fin a, x (ix2 s t) := by
  show Ideal.hostReduceAdd h' x (init (Shape.Idx.first hu)) (ix1 t) = _
  rw [Ideal.hostReduceAdd_single h' h, eq_ix0 (Shape.Idx.first hu)]
  exact congrArg _ (Finset.sum_congr rfl fun s _ => congrArg x (lift_first_ix2 h t s))

/-- The maximum of a fold of `max` with the value the fold starts from is the fold. -/
theorem max_fold_max_self {ι : Type} (S : Finset ι) (lo : EReal) (f : ι → EReal) :
    max lo (S.fold max lo f) = S.fold max lo f :=
  max_eq_right ((Finset.le_fold_max lo).mpr (Or.inl le_rfl))

end Idealize.ShloMosaic.ValueIdx
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.KernelPayload.lean ====
/-
  What the kernel's body stores, entry by entry.

  The body holds a tile of 2048 columns: the 16 × 2048 scores, the 4 × 16 table, and the 256 × 2048 tiles of the even and
  the odd entries. Named stage by stage — the scores times one, each column's largest, the exponentials of the
  differences, their column sums, the normalised weights, the table times the weights, the four coefficient rows —
  each stage read at explicit coordinates is the matching quantity of the column softmax, and the stored value at
  `(p, j)` is the bilinear mix of column `j`'s four coefficients with the two tiles' entries `(p, j)`.
-/
import proofs.«129752_j1494648619383_2_alg».proof.Proof.Gen.KernelIdeal.Skeleton
import proofs.«129752_j1494648619383_2_alg».proof.Proof.Spec
import proofs.«129752_j1494648619383_2_alg».proof.Proof.LibFirstAxis
import proofs.«129752_j1494648619383_2_alg».proof.Proof.LibPlainDot
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.SoftmaxMix

/-- The value of the float word for one, and of the word the maxima start from. -/
abbrev one : EReal := Ideal.ofBits .f32 0x3F800000#32
abbrev lo : EReal := Ideal.ofBits .f32 0xFF800000#32

/-! ## The stages -/

def scaled (v0 : FVec Ideal S16x2048 .f32) : FVec Ideal S16x2048 .f32 :=
  mulf v0 (broadcast S16x2048 (Scalar.ofBits .f32 0x3F800000#32))

def tops (v0 : FVec Ideal S16x2048 .f32) : FVec Ideal S2048 .f32 :=
  multiReduction .maximumf [0] S2048 (scaled v0) 0xFF800000#32 reduces_S16x2048_S2048 (.inl rfl) rfl

/-- A length-2048 vector cast to a row and repeated over the 16 score rows. -/
def overScores (v : FVec Ideal S2048 .f32) : FVec Ideal S16x2048 .f32 :=
  broadcastTo S16x2048 (shapeCast S1x2048 v shapeCasts_S2048_S1x2048) broadcasts_S1x2048_S16x2048

def expos (v0 : FVec Ideal S16x2048 .f32) : FVec Ideal S16x2048 .f32 :=
  exp (subf (scaled v0) (overScores (tops v0)))

def sums (v0 : FVec Ideal S16x2048 .f32) : FVec Ideal S2048 .f32 :=
  multiReduction .add [0] S2048 (expos v0) 0x00000000#32 reduces_S16x2048_S2048 (.inl rfl) rfl

def weights (v0 : FVec Ideal S16x2048 .f32) : FVec Ideal S16x2048 .f32 :=
  divf (expos v0) (overScores (sums v0))

def coefs (v0 : FVec Ideal S16x2048 .f32) (v12 : FVec Ideal S4x16 .f32) : FVec Ideal S4x2048 .f32 :=
  matmul dot_S4x16_S16x2048_S4x2048_1_0_0_1_n_n (some .fp32) v12 (weights v0) (constant S4x2048 .f32 0x00000000#32)

/-- A row [1, 2048] repeated over the 256 rows of the tile. -/
def overRows (v : FVec Ideal S1x2048 .f32) : FVec Ideal S256x2048 .f32 :=
  broadcastTo S256x2048 v broadcasts_S1x2048_S256x2048

/-- The stored value is the mix of the four coefficient rows with the two tiles. -/
theorem pay_eq (v0 : FVec Ideal S16x2048 .f32) (v12 : FVec Ideal S4x16 .f32) (v18 v20 : FVec Ideal S256x2048 .f32) :
    k0_pay1 (F := Ideal) v0 v12 v18 v20
      = addf (addf (addf (overRows (extractStridedSlice S1x2048 ![0, 0] (coefs v0 v12) slices_S4x2048_o0_0_S1x2048))
            (mulf (overRows (extractStridedSlice S1x2048 ![1, 0] (coefs v0 v12) slices_S4x2048_o1_0_S1x2048))
              (shapeCast S256x2048 v18 shapeCasts_S256x2048_S256x2048)))
          (mulf (overRows (extractStridedSlice S1x2048 ![2, 0] (coefs v0 v12) slices_S4x2048_o2_0_S1x2048))
            (shapeCast S256x2048 v20 shapeCasts_S256x2048_S256x2048)))
        (mulf (overRows (extractStridedSlice S1x2048 ![3, 0] (coefs v0 v12) slices_S4x2048_o3_0_S1x2048))
          (mulf (shapeCast S256x2048 v18 shapeCasts_S256x2048_S256x2048) (shapeCast S256x2048 v20 shapeCasts_S256x2048_S256x2048))) := rfl

/-! ## Each stage at coordinates -/

variable (v0 : FVec Ideal S16x2048 .f32)

/-- Column `j` of the tile's scores. -/
abbrev col (j : Fin 2048) : Fin 16 → EReal := fun s => v0 (ix2 s j)

theorem scaled_apply (s : Fin 16) (j : Fin 2048) : scaled v0 (ix2 s j) = v0 (ix2 s j) * one := rfl

theorem overScores_apply (v : FVec Ideal S2048 .f32) (s : Fin 16) (j : Fin 2048) : overScores v (ix2 s j) = v (ix1 j) := by
  unfold overScores
  rw [broadcastTo_1b_ab_apply, shapeCast_a_1a_apply]

theorem tops_apply (j : Fin 2048) : tops v0 (ix1 j) = top (col v0 j) one lo :=
  colMax_apply (scaled v0) 0xFF800000#32 reduces_S16x2048_S2048 (.inl rfl) rfl j

theorem expos_apply (s : Fin 16) (j : Fin 2048) : expos v0 (ix2 s j) = expo (col v0 j) one lo s := by
  show Ideal.exp (scaled v0 (ix2 s j) - overScores (tops v0) (ix2 s j)) = _
  rw [overScores_apply, tops_apply]
  rfl

theorem sums_apply (j : Fin 2048) : sums v0 (ix1 j) = ∑ r : Fin 16, expo (col v0 j) one lo r := by
  refine (colSum_apply (expos v0) 0x00000000#32 reduces_S16x2048_S2048 (.inl rfl) rfl j).trans ?_
  exact Finset.sum_congr rfl fun r _ => expos_apply v0 r j

theorem weights_apply (s : Fin 16) (j : Fin 2048) : weights v0 (ix2 s j) = weight (col v0 j) one lo s := by
  show Ideal.div (expos v0 (ix2 s j)) (overScores (sums v0) (ix2 s j)) = _
  rw [overScores_apply, sums_apply, expos_apply]
  rfl

theorem coefs_apply (v12 : FVec Ideal S4x16 .f32) (q : Fin 4) (j : Fin 2048) :
    coefs v0 v12 (ix2 q j) = coef (fun q k => v12 (ix2 q k)) (col v0 j) one lo q := by
  refine (Cert.LibPlainDot.matmul_plain_apply dot_S4x16_S16x2048_S4x2048_1_0_0_1_n_n rfl rfl rfl rfl rfl rfl (some .fp32)
    v12 (weights v0) q j).trans ?_
  exact Finset.sum_congr rfl fun k _ => by rw [weights_apply]

/-- Coefficient row `q` (the cut starting at row `o = q`) repeated over the tile's rows. -/
theorem coefRow_apply (x : FVec Ideal S4x2048 .f32) (o : ℕ) (h : S4x2048.Slices ![o, 0] S1x2048) (q : Fin 4) (hq : q.val = o)
    (p : Fin 256) (j : Fin 2048) :
    overRows (extractStridedSlice S1x2048 ![o, 0] x h) (ix2 p j) = x (ix2 q j) := by
  unfold overRows
  rw [broadcastTo_1b_ab_apply]
  exact slice2_axis0_apply o x h (0 : Fin 1) j q (by simpa using hq)

/-- THE STORED VALUE at `(p, j)`: the bilinear mix of column `j`'s coefficients with the two tiles' entries. -/
theorem pay_apply (v12 : FVec Ideal S4x16 .f32) (v18 v20 : FVec Ideal S256x2048 .f32) (p : Fin 256) (j : Fin 2048) :
    k0_pay1 (F := Ideal) v0 v12 v18 v20 (ix2 p j)
      = mix (coef (fun q k => v12 (ix2 q k)) (col v0 j) one lo) (v18 (ix2 p j)) (v20 (ix2 p j)) := by
  rw [pay_eq, shapeCast_self, shapeCast_self]
  simp only [addf_apply, mulf_apply]
  rw [coefRow_apply (coefs v0 v12) 0 _ 0 rfl, coefRow_apply (coefs v0 v12) 1 _ 1 rfl, coefRow_apply (coefs v0 v12) 2 _ 2 rfl,
    coefRow_apply (coefs v0 v12) 3 _ 3 rfl]
  simp only [coefs_apply]
  rfl

end Cert.KernelIdeal.Payload

end
-- ==== Proof.KernelValue.lean ====
/-
  The kernel's result array, from its tiles.

  The grid has 32 points; point `t` works on columns `2048·t … 2048·t + 2047`: its score tile, its tiles of the even and
  of the odd entries and its result tile are all column-block `t` of their arrays, and the 4 × 16 table is read whole at
  every point. So entry `(p, q)` of what point `t` writes back — the bilinear mix of column `q` of the score tile with
  the two tiles' entries — is entry `(p, 2048·t + q)` of one function of the whole arrays, the same function at every
  point; the 32 result tiles cover the result array, which therefore ends holding that function. The arrays of even and
  odd entries are what the host operations before the launch make of `x`.
-/
import proofs.«129752_j1494648619383_2_alg».proof.Proof.Gen.KernelIdeal.Value
import proofs.«129752_j1494648619383_2_alg».proof.Proof.KernelPayload
import Idealize.ShloMosaic.Lib.StableHlo.Run

noncomputable section

namespace Cert.KernelIdeal.Tiles

open Cert.KernelIdeal Cert.KernelIdeal.Gen Cert.KernelIdeal.Payload Idealize.ShloMosaic Idealize.ShloMosaic.TcCoe Idealize.SL.Sem
open Idealize.ShloMosaic.ValueIdx Cert.SoftmaxMix
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 points: every moving window's block at point `t` is column-block `t`; the
    table's block is the whole table. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-! ## The input tiles as entries of the arrays the region finds -/

/-- The tile of even entries at point `t`: entry `(p, q)` is entry `(p, 2048·t + q)` of the array. -/
theorem tile0_apply (c : Dev nD) (t : Fin cfg0.N) (p : Fin 256) (q : Fin 2048) (j : Fin 65536) (hj : j.val = 2048 * t.val + q.val) :
    (iblk m c 0 t : Vec Ideal S256x2048 .f32) (ix2 p q) = (V m c main_v2 : S256x65536.Idx → EReal) (ix2 p j) := by
  obtain ⟨e0, e1, -⟩ := idx_facts t
  unfold iblk
  rw [View.read_apply]
  show V m c main_v2 _ = V m c main_v2 _
  refine congrArg (V m c main_v2) (funext fun a => Fin.ext ?_)
  match a with
  | ⟨0, _⟩ => show win0_0.index t (0 : Fin 2) * 256 + 1 * p.val = p.val; rw [e0]; omega
  | ⟨1, _⟩ => show win0_0.index t (1 : Fin 2) * 2048 + 1 * q.val = j.val; rw [e1, hj]; omega

/-- The tile of odd entries at point `t`. -/
theorem tile1_apply (c : Dev nD) (t : Fin cfg0.N) (p : Fin 256) (q : Fin 2048) (j : Fin 65536) (hj : j.val = 2048 * t.val + q.val) :
    (iblk m c 1 t : Vec Ideal S256x2048 .f32) (ix2 p q) = (V m c main_v4 : S256x65536.Idx → EReal) (ix2 p j) := by
  obtain ⟨-, -, e0, e1, -⟩ := idx_facts t
  unfold iblk
  rw [View.read_apply]
  show V m c main_v4 _ = V m c main_v4 _
  refine congrArg (V m c main_v4) (funext fun a => Fin.ext ?_)
  match a with
  | ⟨0, _⟩ => show win0_1.index t (0 : Fin 2) * 256 + 1 * p.val = p.val; rw [e0]; omega
  | ⟨1, _⟩ => show win0_1.index t (1 : Fin 2) * 2048 + 1 * q.val = j.val; rw [e1, hj]; omega

/-- The score tile at point `t`. -/
theorem tile2_apply (c : Dev nD) (t : Fin cfg0.N) (s : Fin 16) (q : Fin 2048) (j : Fin 65536) (hj : j.val = 2048 * t.val + q.val) :
    (iblk m c 2 t : Vec Ideal S16x2048 .f32) (ix2 s q) = (V m c main_arg1 : S16x65536.Idx → EReal) (ix2 s j) := by
  obtain ⟨-, -, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_2.index t (0 : Fin 2) * 16 + 1 * s.val = s.val; rw [e0]; omega
  | ⟨1, _⟩ => show win0_2.index t (1 : Fin 2) * 2048 + 1 * q.val = j.val; rw [e1, hj]; omega

/-- The table's block at any point is the table. -/
theorem tile3_apply (c : Dev nD) (t : Fin cfg0.N) (a : Fin 4) (k : Fin 16) :
    (iblk m c 3 t : Vec Ideal S4x16 .f32) (ix2 a k) = (V m c main_cst : S4x16.Idx → EReal) (ix2 a k) := by
  obtain ⟨-, -, -, -, -, -, e0, e1, -⟩ := idx_facts t
  unfold iblk
  rw [View.read_apply]
  show V m c main_cst _ = V m c main_cst _
  refine congrArg (V m c main_cst) (funext fun b => Fin.ext ?_)
  match b with
  | ⟨0, _⟩ => show win0_3.index t (0 : Fin 2) * 4 + 1 * a.val = a.val; rw [e0]; omega
  | ⟨1, _⟩ => show win0_3.index t (1 : Fin 2) * 16 + 1 * k.val = k.val; rw [e1]; omega

/-! ## The result array -/

/-- The one function of the whole arrays whose column-blocks the points write. -/
abbrev whole (c : Dev nD) : S256x65536.Idx → EReal :=
  result (V m c main_v2 : S256x65536.Idx → EReal) (V m c main_v4 : S256x65536.Idx → EReal)
    (V m c main_arg1 : S16x65536.Idx → EReal) (V m c main_cst : S4x16.Idx → EReal) one lo

/-- WHAT POINT `t` WRITES BACK is column-block `t` of that function. -/
theorem flushed_eq (c : Dev nD) (t : Fin cfg0.N) :
    (dats m 0 c).flushed 4 t = ((cfg0.win 4).blk t).view.read (Elt Ideal) (whole m c) := by
  rw [Cert.KernelIdeal.Value.flushed4]
  unfold out0_4
  rw [View.canon_unit_zero hz]
  simp only [View.ld_unit_zero (S := S16x2048) hz, View.ld_unit_zero (S := S4x16) hz, View.ld_unit_zero (S := S256x2048) hz]
  refine funext fun (y : S256x2048.Idx) => ?_
  obtain ⟨p, q, rfl⟩ : ∃ (p : Fin 256) (q : Fin 2048), y = ix2 p q := ⟨y 0, y 1, eq_ix2 y⟩
  obtain ⟨-, -, -, -, -, -, -, -, e0, e1⟩ := idx_facts t
  have hN : cfg0.N = 32 := N_0
  have ht : t.val < 32 := by have := t.isLt; omega
  have hq : q.val < 2048 := q.isLt
  have hemb : ((cfg0.win 4).blk t).view.emb (ix2 p q) = ix2 p (⟨2048 * t.val + q.val, by omega⟩ : Fin 65536) := by
    funext a
    apply Fin.ext
    match a with
    | ⟨0, _⟩ => show win0_4.index t (0 : Fin 2) * 256 + 1 * p.val = p.val; rw [e0]; omega
    | ⟨1, _⟩ => show win0_4.index t (1 : Fin 2) * 2048 + 1 * q.val = 2048 * t.val + q.val; rw [e1]; omega
  show k0_pay1 (F := Ideal) (iblk m c 2 t) (iblk m c 3 t) (iblk m c 0 t) (iblk m c 1 t) (ix2 p q)
    = whole m c (((cfg0.win 4).blk t).view.emb (ix2 p q))
  rw [hemb]
  unfold whole
  rw [result_ix2]
  refine (pay_apply (iblk m c 2 t) (iblk m c 3 t) (iblk m c 0 t) (iblk m c 1 t) p q).trans ?_
  exact mix_coef_congr one lo
    (funext fun a => funext fun k => tile3_apply m c t a k)
    (funext fun s => tile2_apply m c t s q _ rfl)
    (tile0_apply m c t p q _ rfl) (tile1_apply m c t p q _ rfl)

/-- An index of the result array is in point `t`'s block iff each coordinate is in the block's range on its axis. -/
theorem mem_blk (t : Fin cfg0.N) (i : S256x65536.Idx) :
    i ∈ ((cfg0.win 4).blk t).view.set ↔ ∀ a : Fin 2, win0_4.index t a * S256x2048.size a ≤ (i a).val
      ∧ (i a).val < win0_4.index t a * S256x2048.size a + S256x2048.size a := by
  show i ∈ ((View.whole main_v5).slice (win0_4.rect t)).set ↔ _
  rw [View.set_slice_whole, Rect.mem_set_unit]
  exact Iff.rfl

/-- Every index of the result array is in the block of the point that works on its column. -/
theorem cover (i : S256x65536.Idx) : ∃ t : Fin cfg0.N, (cfg0.win 4).flush t = true ∧ i ∈ ((cfg0.win 4).blk t).view.set := by
  have hi0 : (i 0).val < 256 := (i 0).isLt
  have hi1 : (i 1).val < 65536 := (i 1).isLt
  have hN : cfg0.N = 32 := N_0
  refine ⟨⟨(i 1).val / 2048, by rw [hN]; omega⟩, flush0_4 _, ?_⟩
  rw [mem_blk]
  obtain ⟨-, -, -, -, -, -, -, -, e0, e1⟩ := idx_facts ⟨(i 1).val / 2048, by rw [hN]; omega⟩
  intro a
  match a with
  | ⟨0, _⟩ =>
    show win0_4.index _ (0 : Fin 2) * 256 ≤ (i 0).val ∧ (i 0).val < win0_4.index _ (0 : Fin 2) * 256 + 256
    rw [e0]; omega
  | ⟨1, _⟩ =>
    show win0_4.index _ (1 : Fin 2) * 2048 ≤ (i 1).val ∧ (i 1).val < win0_4.index _ (1 : Fin 2) * 2048 + 2048
    rw [e1]; show (i 1).val / 2048 * 2048 ≤ (i 1).val ∧ (i 1).val < (i 1).val / 2048 * 2048 + 2048; omega

/-- THE RESULT ARRAY after the run is that function of the arrays the region finds. -/
theorem final (c : Dev nD) : (dats m 0 c).arrAt 4 cfg0.N = whole m c :=
  (dats m 0 c).arrAt_eq_of_cover 4 (whole m c) (fun t _ => flushed_eq m c t) cover

/-! ## The arrays the region finds, from the arguments -/

/-- Entries 0, 2, 4, … of each row of `x`: what the host operations before the launch hand the kernel as its first operand. -/
def evens (x : FVec Ideal S256x131072 .f32) : FVec Ideal S256x65536 .f32 :=
  shapeCast S256x65536 (extractStridedSlice S256x65536x1 ![0, 0, 0] (shapeCast S256x65536x2 x shapeCasts_S256x131072_S256x65536x2)
    slices_S256x65536x2_S256x65536x1_0_0_0) shapeCasts_S256x65536x1_S256x65536

/-- Entries 1, 3, 5, … of each row of `x`: the second operand. -/
def odds (x : FVec Ideal S256x131072 .f32) : FVec Ideal S256x65536 .f32 :=
  shapeCast S256x65536 (extractStridedSlice S256x65536x1 ![0, 0, 1] (shapeCast S256x65536x2 x shapeCasts_S256x131072_S256x65536x2)
    slices_S256x65536x2_S256x65536x1_0_0_1) shapeCasts_S256x65536x1_S256x65536

/-- The fixed 4 × 16 table. -/
def table : FVec Ideal S4x16 .f32 := fun i => FloatOps.ofBits .f32 (lit0 (S4x16.rowMajor i))

theorem V_evens (c : Dev nD) :
    (V m c main_v2 : S256x65536.Idx → EReal) = evens (m ((c : Thread nD τ).loc main_arg0)) := by
  dsimp only [Gen.V, Gen.hostOps0]
  after_results
  rfl

theorem V_odds (c : Dev nD) :
    (V m c main_v4 : S256x65536.Idx → EReal) = odds (m ((c : Thread nD τ).loc main_arg0)) := by
  dsimp only [Gen.V, Gen.hostOps0]
  after_results
  rfl

theorem V_table (c : Dev nD) : (V m c main_cst : S4x16.Idx → EReal) = table := by
  dsimp only [Gen.V, Gen.hostOps0]
  after_results
  rfl

/-- The kernel's result as a function of the two arguments. -/
abbrev value (x : FVec Ideal S256x131072 .f32) (w : FVec Ideal S16x65536 .f32) : S256x65536.Idx → EReal :=
  result (P := 256) (N := 65536) (R := 16) (evens x) (odds x) w table one lo

theorem whole_eq (c : Dev nD) :
    whole m c = value (m ((c : Thread nD τ).loc main_arg0)) (m ((c : Thread nD τ).loc main_arg1)) :=
  result_congr one lo (V_evens m c) (V_odds m c) (V_main_arg1 m c) (V_table m c)

/-- The frame run, read: the result array at `value` of the arguments, the arguments unchanged. -/
theorem run : θ_run defs (onTc (τ := τ) (main (F := Ideal))) ⟨m, fun _ => 0, ρ⟩ fun r => ∀ c : Dev nD,
      r.2.mem ((c : Thread nD τ).loc main_v5) = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (whole_eq m c)), (h c).2⟩)
    (Cert.KernelIdeal.Value.run_blocks m ρ)

end Cert.KernelIdeal.Tiles

end
-- ==== Proof.RefRun.lean ====
/-
  The reference program's run, read back.

  The reference is a straight line of 47 host operations. Listed in order they are its whole program, so every weakly
  fair execution ends with each buffer at the value the operations compute from the two argument arrays, the
  arguments themselves untouched. The result is named stage by stage: the even and the odd entries of each row of
  `x`; the scores scaled by one; each column's largest scaled score; the exponentials of the differences; their column
  sums; the normalised weights; the table times the weights (four coefficient rows); each coefficient row spread
  over the 256 rows; and the bilinear mix of the four spread rows with the even and odd entries.
-/
import proofs.«129752_j1494648619383_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 47 operations, in order. -/
abbrev ops : List (HloOp τ sig (Elt F)) :=
  [
    nullary main_cst (fun i => FloatOps.ofBits .f32 (lit0 (S4x16.rowMajor i))),
    reshape main_arg0 main_v0 rfl shapeCasts_S256x131072_S256x65536x2,
    unary main_v0 main_v1 ((extractStridedSlice S256x65536x1 ![0, 0, 0] · slices_S256x65536x2_S256x65536x1_0_0_0) : (⟨S256x65536x2, .f32⟩ : BufTy).Contents (Elt F) → (⟨S256x65536x1, .f32⟩ : BufTy).Contents (Elt F)),
    reshape main_v1 main_v2 rfl shapeCasts_S256x65536x1_S256x65536,
    unary main_v0 main_v3 ((extractStridedSlice S256x65536x1 ![0, 0, 1] · slices_S256x65536x2_S256x65536x1_0_0_1) : (⟨S256x65536x2, .f32⟩ : BufTy).Contents (Elt F) → (⟨S256x65536x1, .f32⟩ : BufTy).Contents (Elt F)),
    reshape main_v3 main_v4 rfl shapeCasts_S256x65536x1_S256x65536,
    nullary main_cst_0 (constant S_ .f32 0x3F800000#32),
    unary main_cst_0 main_v5 (broadcastInDim S16x65536 ![] bcast_S_S16x65536 : (⟨S_, .f32⟩ : BufTy).Contents (Elt F) → (⟨S16x65536, .f32⟩ : BufTy).Contents (Elt F)),
    binary main_arg1 main_v5 main_v6 (mulf : (⟨S16x65536, .f32⟩ : BufTy).Contents (Elt F) → (⟨S16x65536, .f32⟩ : BufTy).Contents (Elt F) → (⟨S16x65536, .f32⟩ : BufTy).Contents (Elt F)),
    nullary main_cst_1 (constant S_ .f32 0xFF800000#32),
    binary main_v6 main_cst_1 main_v7 ((fun x v => Host.reduce FloatOps.maximumf x v reducesTo_S16x65536_S65536_d0 h_S_) : (⟨S16x65536, .f32⟩ : BufTy).Contents (Elt F) → (⟨S_, .f32⟩ : BufTy).Contents (Elt F) → (⟨S65536, .f32⟩ : BufTy).Contents (Elt F)),
    nullary main_cst_2 (constant S_ .f32 0xFF800000#32),
    unary main_cst_2 main_v8 (broadcastInDim S65536 ![] bcast_S_S65536 : (⟨S_, .f32⟩ : BufTy).Contents (Elt F) → (⟨S65536, .f32⟩ : BufTy).Contents (Elt F)),
    binary main_v8 main_v7 main_v9 (maximumf : (⟨S65536, .f32⟩ : BufTy).Contents (Elt F) → (⟨S65536, .f32⟩ : BufTy).Contents (Elt F) → (⟨S65536, .f32⟩ : BufTy).Contents (Elt F)),
    unary main_v9 main_v10 (broadcastInDim S1x65536 ![1] bcast_S65536_S1x65536_1 : (⟨S65536, .f32⟩ : BufTy).Contents (Elt F) → (⟨S1x65536, .f32⟩ : BufTy).Contents (Elt F)),
    unary main_v10 main_v11 (broadcastInDim S16x65536 ![0, 1] bcast_S1x65536_S16x65536_0_1 : (⟨S1x65536, .f32⟩ : BufTy).Contents (Elt F) → (⟨S16x65536, .f32⟩ : BufTy).Contents (Elt F)),
    binary main_v6 main_v11 main_v12 (subf : (⟨S16x65536, .f32⟩ : BufTy).Contents (Elt F) → (⟨S16x65536, .f32⟩ : BufTy).Contents (Elt F) → (⟨S16x65536, .f32⟩ : BufTy).Contents (Elt F)),
    unary main_v12 main_v13 (Host.exp : (⟨S16x65536, .f32⟩ : BufTy).Contents (Elt F) → (⟨S16x65536, .f32⟩ : BufTy).Contents (Elt F)),
    nullary main_cst_3 (constant S_ .f32 0x00000000#32),
    binary main_v13 main_cst_3 main_v14 ((fun x v => Host.reduceAdd x v reducesTo_S16x65536_S65536_d0 h_S_) : (⟨S16x65536, .f32⟩ : BufTy).Contents (Elt F) → (⟨S_, .f32⟩ : BufTy).Contents (Elt F) → (⟨S65536, .f32⟩ : BufTy).Contents (Elt F)),
    unary main_v14 main_v15 (broadcastInDim S1x65536 ![1] bcast_S65536_S1x65536_1 : (⟨S65536, .f32⟩ : BufTy).Contents (Elt F) → (⟨S1x65536, .f32⟩ : BufTy).Contents (Elt F)),
    unary main_v15 main_v16 (broadcastInDim S16x65536 ![0, 1] bcast_S1x65536_S16x65536_0_1 : (⟨S1x65536, .f32⟩ : BufTy).Contents (Elt F) → (⟨S16x65536, .f32⟩ : BufTy).Contents (Elt F)),
    binary main_v13 main_v16 main_v17 (Host.divf : (⟨S16x65536, .f32⟩ : BufTy).Contents (Elt F) → (⟨S16x65536, .f32⟩ : BufTy).Contents (Elt F) → (⟨S16x65536, .f32⟩ : BufTy).Contents (Elt F)),
    binary main_cst main_v17 main_v18 ((fun l r => Host.dotGeneral dot_S4x16_S16x65536_S4x65536_1_0_0_1_n_n none l r) : (⟨S4x16, .f32⟩ : BufTy).Contents (Elt F) → (⟨S16x65536, .f32⟩ : BufTy).Contents (Elt F) → (⟨S4x65536, .f32⟩ : BufTy).Contents (Elt F)),
    unary main_v18 main_v19 ((extractStridedSlice S1x65536 ![0, 0] · slices_S4x65536_S1x65536_0_0) : (⟨S4x65536, .f32⟩ : BufTy).Contents (Elt F) → (⟨S1x65536, .f32⟩ : BufTy).Contents (Elt F)),
    reshape main_v19 main_v20 rfl shapeCasts_S1x65536_S65536,
    unary main_v18 main_v21 ((extractStridedSlice S1x65536 ![1, 0] · slices_S4x65536_S1x65536_1_0) : (⟨S4x65536, .f32⟩ : BufTy).Contents (Elt F) → (⟨S1x65536, .f32⟩ : BufTy).Contents (Elt F)),
    reshape main_v21 main_v22 rfl shapeCasts_S1x65536_S65536,
    unary main_v22 main_v23 (broadcastInDim S1x65536 ![1] bcast_S65536_S1x65536_1 : (⟨S65536, .f32⟩ : BufTy).Contents (Elt F) → (⟨S1x65536, .f32⟩ : BufTy).Contents (Elt F)),
    unary main_v23 main_v24 (broadcastInDim S256x65536 ![0, 1] bcast_S1x65536_S256x65536_0_1 : (⟨S1x65536, .f32⟩ : BufTy).Contents (Elt F) → (⟨S256x65536, .f32⟩ : BufTy).Contents (Elt F)),
    binary main_v24 main_v2 main_v25 (mulf : (⟨S256x65536, .f32⟩ : BufTy).Contents (Elt F) → (⟨S256x65536, .f32⟩ : BufTy).Contents (Elt F) → (⟨S256x65536, .f32⟩ : BufTy).Contents (Elt F)),
    unary main_v20 main_v26 (broadcastInDim S1x65536 ![1] bcast_S65536_S1x65536_1 : (⟨S65536, .f32⟩ : BufTy).Contents (Elt F) → (⟨S1x65536, .f32⟩ : BufTy).Contents (Elt F)),
    unary main_v26 main_v27 (broadcastInDim S256x65536 ![0, 1] bcast_S1x65536_S256x65536_0_1 : (⟨S1x65536, .f32⟩ : BufTy).Contents (Elt F) → (⟨S256x65536, .f32⟩ : BufTy).Contents (Elt F)),
    binary main_v27 main_v25 main_v28 (addf : (⟨S256x65536, .f32⟩ : BufTy).Contents (Elt F) → (⟨S256x65536, .f32⟩ : BufTy).Contents (Elt F) → (⟨S256x65536, .f32⟩ : BufTy).Contents (Elt F)),
    unary main_v18 main_v29 ((extractStridedSlice S1x65536 ![2, 0] · slices_S4x65536_S1x65536_2_0) : (⟨S4x65536, .f32⟩ : BufTy).Contents (Elt F) → (⟨S1x65536, .f32⟩ : BufTy).Contents (Elt F)),
    reshape main_v29 main_v30 rfl shapeCasts_S1x65536_S65536,
    unary main_v30 main_v31 (broadcastInDim S1x65536 ![1] bcast_S65536_S1x65536_1 : (⟨S65536, .f32⟩ : BufTy).Contents (Elt F) → (⟨S1x65536, .f32⟩ : BufTy).Contents (Elt F)),
    unary main_v31 main_v32 (broadcastInDim S256x65536 ![0, 1] bcast_S1x65536_S256x65536_0_1 : (⟨S1x65536, .f32⟩ : BufTy).Contents (Elt F) → (⟨S256x65536, .f32⟩ : BufTy).Contents (Elt F)),
    binary main_v32 main_v4 main_v33 (mulf : (⟨S256x65536, .f32⟩ : BufTy).Contents (Elt F) → (⟨S256x65536, .f32⟩ : BufTy).Contents (Elt F) → (⟨S256x65536, .f32⟩ : BufTy).Contents (Elt F)),
    binary main_v28 main_v33 main_v34 (addf : (⟨S256x65536, .f32⟩ : BufTy).Contents (Elt F) → (⟨S256x65536, .f32⟩ : BufTy).Contents (Elt F) → (⟨S256x65536, .f32⟩ : BufTy).Contents (Elt F)),
    unary main_v18 main_v35 ((extractStridedSlice S1x65536 ![3, 0] · slices_S4x65536_S1x65536_3_0) : (⟨S4x65536, .f32⟩ : BufTy).Contents (Elt F) → (⟨S1x65536, .f32⟩ : BufTy).Contents (Elt F)),
    reshape main_v35 main_v36 rfl shapeCasts_S1x65536_S65536,
    binary main_v2 main_v4 main_v37 (mulf : (⟨S256x65536, .f32⟩ : BufTy).Contents (Elt F) → (⟨S256x65536, .f32⟩ : BufTy).Contents (Elt F) → (⟨S256x65536, .f32⟩ : BufTy).Contents (Elt F)),
    unary main_v36 main_v38 (broadcastInDim S1x65536 ![1] bcast_S65536_S1x65536_1 : (⟨S65536, .f32⟩ : BufTy).Contents (Elt F) → (⟨S1x65536, .f32⟩ : BufTy).Contents (Elt F)),
    unary main_v38 main_v39 (broadcastInDim S256x65536 ![0, 1] bcast_S1x65536_S256x65536_0_1 : (⟨S1x65536, .f32⟩ : BufTy).Contents (Elt F) → (⟨S256x65536, .f32⟩ : BufTy).Contents (Elt F)),
    binary main_v39 main_v37 main_v40 (mulf : (⟨S256x65536, .f32⟩ : BufTy).Contents (Elt F) → (⟨S256x65536, .f32⟩ : BufTy).Contents (Elt F) → (⟨S256x65536, .f32⟩ : BufTy).Contents (Elt F)),
    binary main_v34 main_v40 main_v41 (addf : (⟨S256x65536, .f32⟩ : BufTy).Contents (Elt F) → (⟨S256x65536, .f32⟩ : BufTy).Contents (Elt F) → (⟨S256x65536, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., unary_bufs_sub .., reshape_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

/-! ## The result, stage by stage -/

/-- The fixed 4 × 16 table. -/
def table : FVec F S4x16 .f32 := fun i => FloatOps.ofBits .f32 (lit0 (S4x16.rowMajor i))

/-- Entries 0, 2, 4, … of each row of `x`. -/
def evens (x : FVec F S256x131072 .f32) : FVec F S256x65536 .f32 :=
  shapeCast S256x65536 (extractStridedSlice S256x65536x1 ![0, 0, 0] (shapeCast S256x65536x2 x shapeCasts_S256x131072_S256x65536x2)
    slices_S256x65536x2_S256x65536x1_0_0_0) shapeCasts_S256x65536x1_S256x65536

/-- Entries 1, 3, 5, … of each row of `x`. -/
def odds (x : FVec F S256x131072 .f32) : FVec F S256x65536 .f32 :=
  shapeCast S256x65536 (extractStridedSlice S256x65536x1 ![0, 0, 1] (shapeCast S256x65536x2 x shapeCasts_S256x131072_S256x65536x2)
    slices_S256x65536x2_S256x65536x1_0_0_1) shapeCasts_S256x65536x1_S256x65536

/-- The scores times one. -/
def scaled (w : FVec F S16x65536 .f32) : FVec F S16x65536 .f32 :=
  mulf w (broadcastInDim S16x65536 ![] bcast_S_S16x65536 (constant S_ .f32 0x3F800000#32))

/-- Each column's largest scaled score (and once more against the value the maximum starts from). -/
def tops (w : FVec F S16x65536 .f32) : FVec F S65536 .f32 :=
  maximumf (broadcastInDim S65536 ![] bcast_S_S65536 (constant S_ .f32 0xFF800000#32))
    (Host.reduce FloatOps.maximumf (scaled w) (constant S_ .f32 0xFF800000#32) reducesTo_S16x65536_S65536_d0 h_S_)

/-- A length-65536 vector laid out as a row and repeated over the 16 score rows. -/
def overScores (v : FVec F S65536 .f32) : FVec F S16x65536 .f32 :=
  broadcastInDim S16x65536 ![0, 1] bcast_S1x65536_S16x65536_0_1 (broadcastInDim S1x65536 ![1] bcast_S65536_S1x65536_1 v)

/-- The exponentials of the scaled scores less their column's largest. -/
def expos (w : FVec F S16x65536 .f32) : FVec F S16x65536 .f32 :=
  Host.exp (subf (scaled w) (overScores (tops w)))

/-- The column sums of the exponentials. -/
def sums (w : FVec F S16x65536 .f32) : FVec F S65536 .f32 :=
  Host.reduceAdd (expos w) (constant S_ .f32 0x00000000#32) reducesTo_S16x65536_S65536_d0 h_S_

/-- The normalised weights. -/
def weights (w : FVec F S16x65536 .f32) : FVec F S16x65536 .f32 :=
  Host.divf (expos w) (overScores (sums w))

/-- The table times the weights: four coefficient rows. -/
def coefs (w : FVec F S16x65536 .f32) : FVec F S4x65536 .f32 :=
  Host.dotGeneral dot_S4x16_S16x65536_S4x65536_1_0_0_1_n_n none table (weights w)

/-- The four coefficient rows, each as a vector. -/
def coef0 (w : FVec F S16x65536 .f32) : FVec F S65536 .f32 :=
  shapeCast S65536 (extractStridedSlice S1x65536 ![0, 0] (coefs w) slices_S4x65536_S1x65536_0_0) shapeCasts_S1x65536_S65536
def coef1 (w : FVec F S16x65536 .f32) : FVec F S65536 .f32 :=
  shapeCast S65536 (extractStridedSlice S1x65536 ![1, 0] (coefs w) slices_S4x65536_S1x65536_1_0) shapeCasts_S1x65536_S65536
def coef2 (w : FVec F S16x65536 .f32) : FVec F S65536 .f32 :=
  shapeCast S65536 (extractStridedSlice S1x65536 ![2, 0] (coefs w) slices_S4x65536_S1x65536_2_0) shapeCasts_S1x65536_S65536
def coef3 (w : FVec F S16x65536 .f32) : FVec F S65536 .f32 :=
  shapeCast S65536 (extractStridedSlice S1x65536 ![3, 0] (coefs w) slices_S4x65536_S1x65536_3_0) shapeCasts_S1x65536_S65536

/-- A length-65536 vector laid out as a row and repeated over the 256 rows of the result. -/
def overRows (v : FVec F S65536 .f32) : FVec F S256x65536 .f32 :=
  broadcastInDim S256x65536 ![0, 1] bcast_S1x65536_S256x65536_0_1 (broadcastInDim S1x65536 ![1] bcast_S65536_S1x65536_1 v)

/-- The reference's result: the bilinear mix. -/
def out (x : FVec F S256x131072 .f32) (w : FVec F S16x65536 .f32) : FVec F S256x65536 .f32 :=
  addf (addf (addf (overRows (coef0 w)) (mulf (overRows (coef1 w)) (evens x))) (mulf (overRows (coef2 w)) (odds x)))
    (mulf (overRows (coef3 w)) (mulf (evens x) (odds x)))

/-- What the operations leave in the result buffer, from any contents of the argument buffers. -/
theorem after_out (V : Valuation τ sig (Elt F)) :
    after ops V (Proc.devRef .tc main_v41) = out (V (Proc.devRef .tc main_arg0)) (V (Proc.devRef .tc main_arg1)) := by
  after_results_simp
  rfl

/-- On every device, from any memory with zero counters: every weakly fair execution of the reference terminates with
    the result buffer at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v41).trans (after_out _),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«129752_j1494648619383_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.RefValue.lean ====
/-
  What the reference computes, entry by entry.

  Each stage of the reference's result (RefRun.lean) read at explicit coordinates is the matching quantity of the column
  softmax: the scores times one; each column's largest scaled score (the host takes the maximum once more against the
  value the fold starts from, which changes nothing); the exponentials; their column sums (the host's sum starts from the
  float zero, which adds nothing); the normalised weights; the table times the weights. The result at `(p, j)` is the
  bilinear mix of column `j`'s four coefficients with the even and the odd entry `(p, j)`.
-/
import proofs.«129752_j1494648619383_2_alg».proof.Proof.RefRun
import proofs.«129752_j1494648619383_2_alg».proof.Proof.Spec
import proofs.«129752_j1494648619383_2_alg».proof.Proof.LibFirstAxis
import proofs.«129752_j1494648619383_2_alg».proof.Proof.LibHostDense
import Idealize.ShloMosaic.Lib.ValueLayout

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.SoftmaxMix Cert.LibHostDense

/-- The value of the float word for one, and of the word the maxima start from. -/
abbrev one : EReal := Ideal.ofBits .f32 0x3F800000#32
abbrev lo : EReal := Ideal.ofBits .f32 0xFF800000#32

/-- The first axis of the score matrix can be reduced away. -/
theorem reduces0 : S16x65536.Reduces [0] S65536 := by decide

variable (w : FVec Ideal S16x65536 .f32)

/-- Column `j` of the scores. -/
abbrev col (j : Fin 65536) : Fin 16 → EReal := fun s => w (ix2 s j)

/-- The host's exponential and quotient of arrays read at an index. -/
theorem hostExp_apply {s : Shape} (x : FVec Ideal s .f32) (i : s.Idx) : Host.exp x i = Ideal.exp (x i) := rfl
theorem hostDivf_apply {s : Shape} (x y : FVec Ideal s .f32) (i : s.Idx) : Host.divf x y i = Ideal.div (x i) (y i) := rfl

theorem scaled_apply (s : Fin 16) (j : Fin 65536) : scaled w (ix2 s j) = w (ix2 s j) * one := by
  unfold scaled
  rw [mulf_apply, bcastScalar_apply, constant_apply]

theorem overScores_apply (v : FVec Ideal S65536 .f32) (s : Fin 16) (j : Fin 65536) : overScores v (ix2 s j) = v (ix1 j) := by
  unfold overScores
  rw [bcastRows_apply, bcastRow_apply]

theorem overRows_apply (v : FVec Ideal S65536 .f32) (p : Fin 256) (j : Fin 65536) : overRows v (ix2 p j) = v (ix1 j) := by
  unfold overRows
  rw [bcastRows_apply, bcastRow_apply]

theorem tops_apply (j : Fin 65536) : tops w (ix1 j) = top (col w j) one lo := by
  unfold tops
  rw [maximumf_apply, bcastScalar_apply, hostColMax_apply (scaled w) _ reducesTo_S16x65536_S65536_d0 reduces0 h_S_ j, constant_apply]
  have e : (fun s : Fin 16 => scaled w (ix2 s j)) = fun s => col w j s * one := funext fun s => scaled_apply w s j
  rw [e]
  unfold top
  exact max_fold_max_self _ _ _

theorem expos_apply (s : Fin 16) (j : Fin 65536) : expos w (ix2 s j) = expo (col w j) one lo s := by
  unfold expos
  rw [hostExp_apply, subf_apply, overScores_apply, tops_apply, scaled_apply]
  unfold expo
  rfl

theorem sums_apply (j : Fin 65536) : sums w (ix1 j) = ∑ r : Fin 16, expo (col w j) one lo r := by
  unfold sums
  rw [hostColSum_apply (expos w) _ reducesTo_S16x65536_S65536_d0 reduces0 h_S_ j, constant_apply, Ideal.ofBits_zero_f32, zero_add]
  exact Finset.sum_congr rfl fun r _ => expos_apply w r j

theorem weights_apply (s : Fin 16) (j : Fin 65536) : weights w (ix2 s j) = weight (col w j) one lo s := by
  unfold weights
  rw [hostDivf_apply, overScores_apply, sums_apply, expos_apply]
  unfold weight
  rfl

theorem coefs_apply (q : Fin 4) (j : Fin 65536) :
    coefs w (ix2 q j) = coef (fun q k => table (F := Ideal) (ix2 q k)) (col w j) one lo q := by
  unfold coefs
  rw [hostDot_plain_apply dot_S4x16_S16x65536_S4x65536_1_0_0_1_n_n rfl rfl rfl rfl rfl rfl none
    (table (F := Ideal)) (weights w) q j]
  unfold coef
  exact Finset.sum_congr rfl fun k _ => by rw [weights_apply]

/-- Coefficient row `q` (the cut starting at row `o = q`, cast to a vector) read at column `j`. -/
theorem coefRow_apply (x : FVec Ideal S4x65536 .f32) (o : ℕ) (h : S4x65536.Slices ![o, 0] S1x65536) (q : Fin 4) (hq : q.val = o)
    (j : Fin 65536) :
    shapeCast S65536 (extractStridedSlice S1x65536 ![o, 0] x h) shapeCasts_S1x65536_S65536 (ix1 j) = x (ix2 q j) := by
  rw [shapeCast_1a_a_apply]
  exact slice2_axis0_apply o x h (0 : Fin 1) j q (by simpa using hq)

/-- THE REFERENCE'S RESULT at `(p, j)`: the bilinear mix of column `j`'s coefficients with the even and the odd entry. -/
theorem out_apply (x : FVec Ideal S256x131072 .f32) (p : Fin 256) (j : Fin 65536) :
    out x w (ix2 p j)
      = mix (coef (fun q k => table (F := Ideal) (ix2 q k)) (col w j) one lo) (evens x (ix2 p j)) (odds x (ix2 p j)) := by
  unfold out
  simp only [addf_apply, mulf_apply, overRows_apply]
  unfold coef0 coef1 coef2 coef3
  rw [coefRow_apply (coefs w) 0 _ 0 rfl, coefRow_apply (coefs w) 1 _ 1 rfl, coefRow_apply (coefs w) 2 _ 2 rfl,
    coefRow_apply (coefs w) 3 _ 3 rfl]
  simp only [coefs_apply]
  unfold mix
  rfl

end Cert.ReferenceIdeal.RefValue

end
-- ==== Proof.lean ====
/-
  The kernel against its reference, on the extended reals.

  Both programs compute, for every row `p` and column `j`,
      ((c₀ + c₁ · a) + c₂ · b) + c₃ · (a · b),
  where `a` and `b` are the even and the odd entry `2j`, `2j + 1` of row `p` of `x`, and `c₀ … c₃` are the rows of a fixed
  4 × 16 table applied to the softmax down column `j` of the 16 × 65536 score matrix `w` (each score times one, less the
  column's largest, exponentiated, divided by the column's sum of exponentials). The kernel does this tile by tile, 2048
  columns at a time over a grid of 32 points, the reference on the whole arrays; the kernel takes a column's maximum and
  sum inside its body, the reference with the host's reductions, which start from the float −∞ and 0: a maximum taken once
  more against the value it started from, and a sum started from zero, are the same numbers. Every other operation is
  the same operation on both sides, in the same order, so the two results agree at every extended real and the inputs'
  finiteness is never used.

  The even and the odd entries are made by the same three host operations in both programs, and are carried as they are.
  The table's sixty-four words are the same words in both programs.
-/
import proofs.«129752_j1494648619383_2_alg».proof.Defs
import proofs.«129752_j1494648619383_2_alg».proof.Proof.Gen.Kernel
import proofs.«129752_j1494648619383_2_alg».proof.Proof.Gen.Kernel.Skeleton
import proofs.«129752_j1494648619383_2_alg».proof.Proof.Gen.Kernel.Launch
import proofs.«129752_j1494648619383_2_alg».proof.Proof.Gen.Kernel.Points
import proofs.«129752_j1494648619383_2_alg».proof.Proof.Gen.Kernel.Frame
import proofs.«129752_j1494648619383_2_alg».proof.Proof.Gen.KernelIdeal
import proofs.«129752_j1494648619383_2_alg».proof.Proof.Gen.KernelIdeal.Skeleton
import proofs.«129752_j1494648619383_2_alg».proof.Proof.Gen.KernelIdeal.Launch
import proofs.«129752_j1494648619383_2_alg».proof.Proof.Gen.KernelIdeal.Points
import proofs.«129752_j1494648619383_2_alg».proof.Proof.Gen.KernelIdeal.Frame
import proofs.«129752_j1494648619383_2_alg».proof.Proof.Gen.KernelIdeal.Value
import proofs.«129752_j1494648619383_2_alg».proof.Proof.Gen.ReferenceIdeal
import proofs.«129752_j1494648619383_2_alg».proof.Proof.Gen.Pre_finite_inputs
import proofs.«129752_j1494648619383_2_alg».proof.Proof.KernelValue
import proofs.«129752_j1494648619383_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.SoftmaxMix

/-! ## The two results are one function of the arguments -/

/-- The table's words are the same in both programs. -/
theorem words_eq : Cert.KernelIdeal.lit0 = Cert.ReferenceIdeal.lit0 := funext (by decide)

/-- So the two tables are one array. -/
theorem table_eq : Cert.KernelIdeal.Tiles.table = Cert.ReferenceIdeal.RefRun.table (F := Ideal) := by
  funext i
  show FloatOps.ofBits .f32 (Cert.KernelIdeal.lit0 _) = FloatOps.ofBits .f32 (Cert.ReferenceIdeal.lit0 _)
  rw [words_eq]

/-- The reference's result is the bilinear mix of the column softmax's coefficients, entry by entry. -/
theorem ref_out_eq (x : FVec Ideal Cert.ReferenceIdeal.S256x131072 .f32) (w : FVec Ideal Cert.ReferenceIdeal.S16x65536 .f32) :
    Cert.ReferenceIdeal.RefRun.out x w
      = result (P := 256) (N := 65536) (R := 16) (Cert.ReferenceIdeal.RefRun.evens x) (Cert.ReferenceIdeal.RefRun.odds x) w
          (Cert.ReferenceIdeal.RefRun.table (F := Ideal)) Cert.ReferenceIdeal.RefValue.one Cert.ReferenceIdeal.RefValue.lo := by
  funext i
  obtain ⟨p, j, rfl⟩ : ∃ (p : Fin 256) (j : Fin 65536), i = ix2 p j := ⟨i 0, i 1, eq_ix2 i⟩
  rw [Cert.ReferenceIdeal.RefValue.out_apply, result_ix2]
  rfl

/-- The kernel's result array and the reference's are the same function of the same arguments. -/
theorem value_eq (x : FVec Ideal Cert.KernelIdeal.S256x131072 .f32) (w : FVec Ideal Cert.KernelIdeal.S16x65536 .f32) :
    Cert.ReferenceIdeal.RefRun.out x w = Cert.KernelIdeal.Tiles.value x w := by
  rw [ref_out_eq]
  exact result_congr _ _ rfl rfl rfl table_eq.symm

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments both programs end with the same result array. -/
theorem algebraic : Cert.algebraic_KernelIdeal_ReferenceIdeal := by
  intro m ρ m' ρ' _ hagree
  refine ⟨fun c => Cert.KernelIdeal.Tiles.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tiles.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact value_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
